-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  The program is nine segments: host operations, the first product, host operations, the bias-and-threshold stage,
  the second product, host operations, the last bias stage.  The generated frame proves that every weakly fair
  execution terminates without a fault and follows the buffer contents from boundary to boundary: `Gen.W9` is what
  every unscoped buffer holds after the last segment.  The frame statement keeps of this only that the arguments are
  unchanged.  Here the same launch is read once more at the result buffer: after the run it holds `Gen.W9` there.
-/
import proofs.«141450_j43276090474887_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; afterwards the result buffer holds the last
    boundary's contents and the six argument arrays are as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunResult

end
-- ==== Proof.EdgeMix.lean ====
/-
  The mixing of node rows along the edges of the graph, which both programs perform with the same host operations.

  From the edge list the programs form the source and the destination of every edge with a self loop appended for
  every node, count each node's degree by summing ones into the destinations, take the inverse square root of the
  positive degrees, and weigh each edge by the product of that factor at its two ends.  One round of mixing gathers
  the source row of every edge, scales it by the edge's weight and sums the scaled rows into their destination rows.
  These functions are written once in each program's vocabulary; over the same arrays the two spellings are the same
  functions, because the operations and their dimension numbers coincide.  Nothing about gathers or scatters is used
  beyond that: the chain is carried whole.
-/
import proofs.«141450_j43276090474887_1_alg».proof.Proof.Gen.KernelIdeal
import proofs.«141450_j43276090474887_1_alg».proof.Proof.Gen.ReferenceIdeal

noncomputable section

namespace Cert.KernelIdeal.Mix

open Cert.KernelIdeal Cert.KernelIdeal.Gen Idealize.ShloMosaic

variable {F : FTy → Type} [FloatOps F]

/-- The edges' source nodes, followed by every node once: each node also sends to itself. -/
def srcOf (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The edges' destination nodes, followed by every node once. -/
def dstOf (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- A negative node number counted from the end: 100000 is added to it. -/
def clampIdx (x : IVec S1700000 32) : IVec S1700000 32 :=
  (select (cmpi .slt x (broadcastInDim S1700000 ![] bcast_S_S1700000 (constantI S_ 32 0#32))) (addi x (broadcastInDim S1700000 ![] bcast_S_S1700000 (constantI S_ 32 100000#32))) x)

/-- The degree of every node: the number of edges, self loop included, that arrive at it. -/
def degOf (dst : IVec S1700000 32) : FVec F S100000 .f32 :=
  (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))

/-- The inverse square root of the degree, where the degree is positive, and zero elsewhere. -/
def disOf (dst : IVec S1700000 32) : FVec F S100000 .f32 :=
  (select (cmpf (F := F) .ogt (degOf (F := F) dst) (broadcastInDim S100000 ![] bcast_S_S100000 (constant S_ .f32 0x00000000#32))) (Host.rsqrt (degOf (F := F) dst)) (broadcastInDim S100000 ![] bcast_S_S100000 (id (constant S_ .f32 0x00000000#32))))

/-- The symmetric normalisation of an edge: the product of that factor at its source and at its destination. -/
def normOf (src dst : IVec S1700000 32) : FVec F S1700000 .f32 :=
  (mulf (Host.gather gather_S100000_S1700000x1_S1700000_n_0_n_n_0_1_1 (disOf (F := F) dst) (broadcastInDim S1700000x1 ![0] bcast_S1700000_S1700000x1_0 (clampIdx src))) (Host.gather gather_S100000_S1700000x1_S1700000_n_0_n_n_0_1_1 (disOf (F := F) dst) (broadcastInDim S1700000x1 ![0] bcast_S1700000_S1700000x1_0 (clampIdx dst))))

/-- One round of mixing along the edges: each edge takes its source's row, scales it by the edge's weight, and the
    scaled rows are summed into the rows of their destinations, starting from zero. -/
def mixWith (src dst : IVec S1700000 32) (nrm : FVec F S1700000 .f32) (xw : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 xw (broadcastInDim S1700000x1 ![0] bcast_S1700000_S1700000x1_0 (clampIdx src))) (broadcastInDim S1700000x64 ![0, 1] bcast_S1700000x1_S1700000x64_0_1 (broadcastInDim S1700000x1 ![0] bcast_S1700000_S1700000x1_0 nrm)))

end Cert.KernelIdeal.Mix

namespace Cert.ReferenceIdeal.Mix

open Cert.ReferenceIdeal Cert.ReferenceIdeal.Gen Idealize.ShloMosaic

variable {F : FTy → Type} [FloatOps F]

/-- The edges' source nodes, followed by every node once: each node also sends to itself. -/
def srcOf (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The edges' destination nodes, followed by every node once. -/
def dstOf (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- A negative node number counted from the end: 100000 is added to it. -/
def clampIdx (x : IVec S1700000 32) : IVec S1700000 32 :=
  (select (cmpi .slt x (broadcastInDim S1700000 ![] bcast_S_S1700000 (constantI S_ 32 0#32))) (addi x (broadcastInDim S1700000 ![] bcast_S_S1700000 (constantI S_ 32 100000#32))) x)

/-- The degree of every node: the number of edges, self loop included, that arrive at it. -/
def degOf (dst : IVec S1700000 32) : FVec F S100000 .f32 :=
  (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))

/-- The inverse square root of the degree, where the degree is positive, and zero elsewhere. -/
def disOf (dst : IVec S1700000 32) : FVec F S100000 .f32 :=
  (select (cmpf (F := F) .ogt (degOf (F := F) dst) (broadcastInDim S100000 ![] bcast_S_S100000 (constant S_ .f32 0x00000000#32))) (Host.rsqrt (degOf (F := F) dst)) (broadcastInDim S100000 ![] bcast_S_S100000 (id (constant S_ .f32 0x00000000#32))))

/-- The symmetric normalisation of an edge: the product of that factor at its source and at its destination. -/
def normOf (src dst : IVec S1700000 32) : FVec F S1700000 .f32 :=
  (mulf (Host.gather gather_S100000_S1700000x1_S1700000_n_0_n_n_0_1_1 (disOf (F := F) dst) (broadcastInDim S1700000x1 ![0] bcast_S1700000_S1700000x1_0 (clampIdx src))) (Host.gather gather_S100000_S1700000x1_S1700000_n_0_n_n_0_1_1 (disOf (F := F) dst) (broadcastInDim S1700000x1 ![0] bcast_S1700000_S1700000x1_0 (clampIdx dst))))

/-- One round of mixing along the edges: each edge takes its source's row, scales it by the edge's weight, and the
    scaled rows are summed into the rows of their destinations, starting from zero. -/
def mixWith (src dst : IVec S1700000 32) (nrm : FVec F S1700000 .f32) (xw : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 xw (broadcastInDim S1700000x1 ![0] bcast_S1700000_S1700000x1_0 (clampIdx src))) (broadcastInDim S1700000x64 ![0, 1] bcast_S1700000x1_S1700000x64_0_1 (broadcastInDim S1700000x1 ![0] bcast_S1700000_S1700000x1_0 nrm)))

end Cert.ReferenceIdeal.Mix

namespace Cert.MixBridge

open Idealize.ShloMosaic

variable {F : FTy → Type} [FloatOps F]

theorem srcOf_eq (e : IVec Cert.KernelIdeal.S2x1600000 32) :
    Cert.KernelIdeal.Mix.srcOf e = Cert.ReferenceIdeal.Mix.srcOf e := rfl

theorem dstOf_eq (e : IVec Cert.KernelIdeal.S2x1600000 32) :
    Cert.KernelIdeal.Mix.dstOf e = Cert.ReferenceIdeal.Mix.dstOf e := rfl

theorem normOf_eq (src dst : IVec Cert.KernelIdeal.S1700000 32) :
    Cert.KernelIdeal.Mix.normOf (F := F) src dst = Cert.ReferenceIdeal.Mix.normOf (F := F) src dst := rfl

theorem mixWith_eq (src dst : IVec Cert.KernelIdeal.S1700000 32) (nrm : FVec F Cert.KernelIdeal.S1700000 .f32)
    (xw : FVec F Cert.KernelIdeal.S100000x64 .f32) :
    Cert.KernelIdeal.Mix.mixWith src dst nrm xw = Cert.ReferenceIdeal.Mix.mixWith src dst nrm xw := rfl

end Cert.MixBridge

end
-- ==== Proof.HostStretch.lean ====
/-
  The idealized kernel's host operations, stretch by stretch, as functions of the buffers each stretch starts from.

  Before the first product the program builds, from the edge list alone, the source and destination of every edge
  (self loops appended) and the edges' normalisation weights; the node features, the weights and the biases are not
  touched.  Between the first product and the bias stage, and again between the second product and the last bias
  stage, it performs one round of mixing along the edges on the product's result and lays the bias out as a single row;
  the edge data computed at the start is read again, unchanged.  Each statement is over arbitrary starting contents.
-/
import proofs.«141450_j43276090474887_1_alg».proof.Proof.Gen.KernelIdeal.Launch
import proofs.«141450_j43276090474887_1_alg».proof.Proof.EdgeMix
import Idealize.ShloMosaic.Lib.StableHlo.Run

set_option maxRecDepth 16384

noncomputable section

namespace Cert.KernelIdeal.HostStretch

open Cert.KernelIdeal Cert.KernelIdeal.Gen Cert.KernelIdeal.Mix
open Idealize.ShloMosaic Idealize.ShloMosaic.TcCoe Idealize.SL.Sem Idealize.ShloMosaic.StableHlo

variable {F : FTy → Type} [FloatOps F]

/-! ## Before the first product: the edge data -/

set_option maxHeartbeats 4000000 in
/-- The sources of the edges, self loops appended. -/
theorem pre_src (W : Valuation τ sig (Elt F)) : StableHlo.after (hostOps0_2 (F := F)) (StableHlo.after hostOps0_1 (StableHlo.after hostOps0 W)) (Proc.devRef .tc main_v3) = srcOf (W (Proc.devRef .tc main_arg1)) := by
  after_results_simp <;> rfl

set_option maxHeartbeats 4000000 in
/-- The destinations of the edges, self loops appended. -/
theorem pre_dst (W : Valuation τ sig (Elt F)) : StableHlo.after (hostOps0_2 (F := F)) (StableHlo.after hostOps0_1 (StableHlo.after hostOps0 W)) (Proc.devRef .tc main_v6) = dstOf (W (Proc.devRef .tc main_arg1)) := by
  after_results_simp <;> rfl

set_option maxHeartbeats 4000000 in
/-- The edges' normalisation weights. -/
theorem pre_norm (W : Valuation τ sig (Elt F)) :
    StableHlo.after (hostOps0_2 (F := F)) (StableHlo.after hostOps0_1 (StableHlo.after hostOps0 W)) (Proc.devRef .tc main_v29) = normOf (F := F) (srcOf (W (Proc.devRef .tc main_arg1))) (dstOf (W (Proc.devRef .tc main_arg1))) := by
  after_results_simp <;> rfl

/-! The features, the weights and the biases are not written before the first product. -/

set_option maxHeartbeats 4000000 in
theorem pre_keeps_main_arg0 (W : Valuation τ sig (Elt F)) : StableHlo.after (hostOps0_2 (F := F)) (StableHlo.after hostOps0_1 (StableHlo.after hostOps0 W)) (Proc.devRef .tc main_arg0) = W (Proc.devRef .tc main_arg0) := by
  after_results_simp <;> rfl

set_option maxHeartbeats 4000000 in
theorem pre_keeps_main_arg2 (W : Valuation τ sig (Elt F)) : StableHlo.after (hostOps0_2 (F := F)) (StableHlo.after hostOps0_1 (StableHlo.after hostOps0 W)) (Proc.devRef .tc main_arg2) = W (Proc.devRef .tc main_arg2) := by
  after_results_simp <;> rfl

set_option maxHeartbeats 4000000 in
theorem pre_keeps_main_arg3 (W : Valuation τ sig (Elt F)) : StableHlo.after (hostOps0_2 (F := F)) (StableHlo.after hostOps0_1 (StableHlo.after hostOps0 W)) (Proc.devRef .tc main_arg3) = W (Proc.devRef .tc main_arg3) := by
  after_results_simp <;> rfl

set_option maxHeartbeats 4000000 in
theorem pre_keeps_main_arg4 (W : Valuation τ sig (Elt F)) : StableHlo.after (hostOps0_2 (F := F)) (StableHlo.after hostOps0_1 (StableHlo.after hostOps0 W)) (Proc.devRef .tc main_arg4) = W (Proc.devRef .tc main_arg4) := by
  after_results_simp <;> rfl

set_option maxHeartbeats 4000000 in
theorem pre_keeps_main_arg5 (W : Valuation τ sig (Elt F)) : StableHlo.after (hostOps0_2 (F := F)) (StableHlo.after hostOps0_1 (StableHlo.after hostOps0 W)) (Proc.devRef .tc main_arg5) = W (Proc.devRef .tc main_arg5) := by
  after_results_simp <;> rfl

/-! ## Between the first product and the first bias stage -/

set_option maxHeartbeats 4000000 in
/-- One round of mixing on the first product's result. -/
theorem mid_mix (W : Valuation τ sig (Elt F)) :
    StableHlo.after (hostOps1 (F := F)) W (Proc.devRef .tc main_v43)
      = mixWith (W (Proc.devRef .tc main_v3)) (W (Proc.devRef .tc main_v6)) (W (Proc.devRef .tc main_v29)) (W (Proc.devRef .tc main_v30)) := by
  after_results_simp <;> rfl

set_option maxHeartbeats 4000000 in
/-- The first bias laid out as one row. -/
theorem mid_row (W : Valuation τ sig (Elt F)) :
    StableHlo.after (hostOps1 (F := F)) W (Proc.devRef .tc main_v44) = shapeCast S1x64 (W (Proc.devRef .tc main_arg3)) shapeCasts_S64_S1x64 := by
  after_results_simp <;> rfl

/-! The edge data, the second weight matrix and the second bias are not written there. -/

set_option maxHeartbeats 4000000 in
theorem mid_keeps_main_v3 (W : Valuation τ sig (Elt F)) : StableHlo.after (hostOps1 (F := F)) W (Proc.devRef .tc main_v3) = W (Proc.devRef .tc main_v3) := by
  after_results_simp <;> rfl

set_option maxHeartbeats 4000000 in
theorem mid_keeps_main_v6 (W : Valuation τ sig (Elt F)) : StableHlo.after (hostOps1 (F := F)) W (Proc.devRef .tc main_v6) = W (Proc.devRef .tc main_v6) := by
  after_results_simp <;> rfl

set_option maxHeartbeats 4000000 in
theorem mid_keeps_main_v29 (W : Valuation τ sig (Elt F)) : StableHlo.after (hostOps1 (F := F)) W (Proc.devRef .tc main_v29) = W (Proc.devRef .tc main_v29) := by
  after_results_simp <;> rfl

set_option maxHeartbeats 4000000 in
theorem mid_keeps_main_arg4 (W : Valuation τ sig (Elt F)) : StableHlo.after (hostOps1 (F := F)) W (Proc.devRef .tc main_arg4) = W (Proc.devRef .tc main_arg4) := by
  after_results_simp <;> rfl

set_option maxHeartbeats 4000000 in
theorem mid_keeps_main_arg5 (W : Valuation τ sig (Elt F)) : StableHlo.after (hostOps1 (F := F)) W (Proc.devRef .tc main_arg5) = W (Proc.devRef .tc main_arg5) := by
  after_results_simp <;> rfl

/-! ## Between the second product and the last bias stage -/

set_option maxHeartbeats 4000000 in
/-- One round of mixing on the second product's result. -/
theorem last_mix (W : Valuation τ sig (Elt F)) :
    StableHlo.after (hostOps3 (F := F)) W (Proc.devRef .tc main_v59)
      = mixWith (W (Proc.devRef .tc main_v3)) (W (Proc.devRef .tc main_v6)) (W (Proc.devRef .tc main_v29)) (W (Proc.devRef .tc main_v46)) := by
  after_results_simp <;> rfl

set_option maxHeartbeats 4000000 in
/-- The second bias laid out as one row. -/
theorem last_row (W : Valuation τ sig (Elt F)) :
    StableHlo.after (hostOps3 (F := F)) W (Proc.devRef .tc main_v60) = shapeCast S1x64 (W (Proc.devRef .tc main_arg5)) shapeCasts_S64_S1x64 := by
  after_results_simp <;> rfl

end Cert.KernelIdeal.HostStretch

end
-- ==== Proof.Spec.lean ====
/-
  The dense stages of a two-layer graph convolution over 100000 nodes, as functions of whole arrays on the extended
  reals, index by index.

  A layer multiplies every node's feature row by a weight matrix, mixes the rows along the edges of the graph (a
  gather of source rows, a scaling by the symmetric degree normalisation, a sum into destination rows), adds a bias
  row to every node, and — in the first layer only — replaces each negative entry by zero.  The mixing along edges is
  not stated here: it is one and the same chain of operations in both programs, and is carried as one function.
  What is stated here is what a tiled implementation computes tile by tile and an untiled one in one piece:

  * `rowsTimes x w` at (r, q) is the sum over k of x (r, k) · w (k, q);
  * `plusRow a b` at (r, q) is a (r, q) + b (0, q), the bias being a single row;
  * `plusRowPos a b` at (r, q) is max (a (r, q) + b (0, q)) 0.
-/
import Idealize.ShloMosaic.PureOps.Ideal
import Idealize.ShloMosaic.Lib.ValueIdx

noncomputable section

open scoped BigOperators

namespace Cert.Gcn

open Idealize.ShloMosaic Idealize.ShloMosaic.ValueIdx

/-- Every row of `x` against the weight matrix `w`: entry (r, q) is the sum over k of x (r, k) · w (k, q). -/
def rowsTimes {K : Nat} (x : (⟨2, ![100000, K]⟩ : Shape).Idx → EReal) (w : (⟨2, ![K, 64]⟩ : Shape).Idx → EReal) :
    (⟨2, ![100000, 64]⟩ : Shape).Idx → EReal :=
  fun i => ∑ k : Fin K, x (ix2 (i 0 : Fin 100000) k) * w (ix2 k (i 1 : Fin 64))

/-- The one bias row added to every row: entry (r, q) is a (r, q) + b (0, q). -/
def plusRow (a : (⟨2, ![100000, 64]⟩ : Shape).Idx → EReal) (b : (⟨2, ![1, 64]⟩ : Shape).Idx → EReal) :
    (⟨2, ![100000, 64]⟩ : Shape).Idx → EReal :=
  fun i => a i + b (ix2 (0 : Fin 1) (i 1 : Fin 64))

/-- The bias row added and the negative entries replaced by zero: entry (r, q) is max (a (r, q) + b (0, q)) 0. -/
def plusRowPos (a : (⟨2, ![100000, 64]⟩ : Shape).Idx → EReal) (b : (⟨2, ![1, 64]⟩ : Shape).Idx → EReal) :
    (⟨2, ![100000, 64]⟩ : Shape).Idx → EReal :=
  fun i => max (a i + b (ix2 (0 : Fin 1) (i 1 : Fin 64))) 0

theorem rowsTimes_apply {K : Nat} (x : (⟨2, ![100000, K]⟩ : Shape).Idx → EReal) (w : (⟨2, ![K, 64]⟩ : Shape).Idx → EReal)
    (r : Fin 100000) (q : Fin 64) : rowsTimes x w (ix2 r q) = ∑ k : Fin K, x (ix2 r k) * w (ix2 k q) := rfl

theorem plusRow_apply (a : (⟨2, ![100000, 64]⟩ : Shape).Idx → EReal) (b : (⟨2, ![1, 64]⟩ : Shape).Idx → EReal)
    (r : Fin 100000) (q : Fin 64) : plusRow a b (ix2 r q) = a (ix2 r q) + b (ix2 (0 : Fin 1) q) := rfl

theorem plusRowPos_apply (a : (⟨2, ![100000, 64]⟩ : Shape).Idx → EReal) (b : (⟨2, ![1, 64]⟩ : Shape).Idx → EReal)
    (r : Fin 100000) (q : Fin 64) : plusRowPos a b (ix2 r q) = max (a (ix2 r q) + b (ix2 (0 : Fin 1) q)) 0 := rfl

end Cert.Gcn

end
-- ==== Proof.RowLayout.lean ====
/-
  A bias of 64 entries laid out as one row, in the two ways the programs do it.

  One program reshapes the 64 entries to a [1, 64] array and adds that row to every row of a block; the other
  broadcasts the entries along a new leading axis to [1, 64] and then along that axis to [100000, 64].  Either way the
  entry met at column q is the bias's entry q.
-/
import Idealize.ShloMosaic.Lib.Pipeline.Value
import Idealize.ShloMosaic.Lib.ValueIdx

noncomputable section

namespace Cert.Gcn

open Idealize.ShloMosaic Idealize.ShloMosaic.ValueIdx

variable {α : Type}

/-- The 64 entries as a single row: entry (0, q) is entry q. -/
def rowOf (b : (⟨1, ![64]⟩ : Shape).Idx → α) : (⟨2, ![1, 64]⟩ : Shape).Idx → α :=
  fun j => b (ix1 (j 1 : Fin 64))

/-- The reshape of 64 entries to one row is that row. -/
theorem shapeCast_row (b : (⟨1, ![64]⟩ : Shape).Idx → α) (h : (⟨1, ![64]⟩ : Shape).ShapeCasts ⟨2, ![1, 64]⟩) :
    shapeCast ⟨2, ![1, 64]⟩ b h = rowOf b := by
  funext j
  refine (shapeCast_addUnit_apply ![64] b h j).trans ?_
  refine congrArg b (funext fun a => ?_)
  match a with
  | ⟨0, _⟩ => rfl

/-- The 64 entries broadcast to one row and then to every row, read at (r, q): entry q. -/
theorem broadcast_rows_apply (b : (⟨1, ![64]⟩ : Shape).Idx → α)
    (h1 : (⟨1, ![64]⟩ : Shape).BroadcastsInDim ⟨2, ![1, 64]⟩ ![1])
    (h2 : (⟨2, ![1, 64]⟩ : Shape).BroadcastsInDim ⟨2, ![100000, 64]⟩ ![0, 1]) (r : Fin 100000) (q : Fin 64) :
    broadcastInDim ⟨2, ![100000, 64]⟩ ![0, 1] h2 (broadcastInDim ⟨2, ![1, 64]⟩ ![1] h1 b) (ix2 r q) = b (ix1 q) := by
  refine (broadcastInDim_apply ![0, 1] h2 _ (ix2 r q) (ix2 (0 : Fin 1) q) (fun a => ?_)).trans ?_
  · match a with
    | ⟨0, _⟩ => exact (if_pos rfl).symm
    | ⟨1, _⟩ => exact (if_neg (show ¬ ((64 : Nat) = 1) by decide)).symm
  · refine broadcastInDim_apply ![1] h1 b (ix2 (0 : Fin 1) q) (ix1 q) (fun a => ?_)
    match a with
    | ⟨0, _⟩ => exact (if_neg (show ¬ ((64 : Nat) = 1) by decide)).symm

end Cert.Gcn

end
-- ==== Proof.LibRowDot.lean ====
/-
  A rows-by-columns product read at an index.

  For the plain dimension numbers of an [M, K] by [K, N] product (the left operand contracted on its axis 1, the
  right on its axis 0, no batch axis) the sum over the contraction index of the operands' products at output
  element (p, q) is the sum over k < K of left (p, k) times right (k, q).  Both a matmul into a zero
  accumulator and the host's dot_general are that sum on the extended reals.
-/
import Idealize.ShloMosaic.PureOps.Ideal.Laws
import Idealize.ShloMosaic.Lib.ValueIdx

noncomputable section

namespace Idealize.ShloMosaic.RowDot

open Idealize.ShloMosaic Idealize.ShloMosaic.ValueIdx

variable {M K N : Nat}

/-- The contraction's sum of a plain product at output element j, re-indexed by the contracted coordinate. -/
theorem plain_sum (l : (⟨2, ![M, K]⟩ : Shape).Idx → EReal) (r : (⟨2, ![K, N]⟩ : Shape).Idx → EReal)
    (j : (⟨2, ![M, N]⟩ : Shape).Idx) :
    ∑ k : (DotDims.plain M K N).contr.Idx,
        l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congr (congrArg (fun a b : EReal => a * b) (congrArg l el)) (congrArg r er)

/-- A matmul into the zero accumulator, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, (l (ix2 p k) : EReal) * (r (ix2 k q) : EReal) := by
  rw [Ideal.matmul_constant_zero_apply]
  exact plain_sum (M := M) (K := K) (N := N) l r (ix2 p q)

/-- The host's dot_general, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q)
      = ∑ k : Fin K, (l (ix2 p k) : EReal) * (r (ix2 k q) : EReal) := by
  rw [Ideal.dotGeneral_apply]
  exact plain_sum (M := M) (K := K) (N := N) l r (ix2 p q)

end Idealize.ShloMosaic.RowDot

end
-- ==== Proof.ProductRegions.lean ====
/-
  The two matrix products of the graph convolution, each as ONE function of whole arrays.

  A product region visits ten grid points.  At point t it holds rows 10000 t … 10000 t + 9999 of its left operand (a
  block of 10000 rows), the whole of its right operand (a weight matrix), and writes back the same ten thousand rows of
  its result.  What it computes on a block is a rows-by-columns product into a zero accumulator; on the extended reals
  the change of number format before the product is the identity, so entry (p, q) of the block is the sum over k of
  left (p, k) · right (k, q).  Row p of block t is row 10000 t + p of the array, so the block a point writes back is
  the restriction of the whole-array product to its rows; and row r lies in block r / 10000, so the ten blocks cover the
  array.  Hence after the ten points the result array is the product of the two operand arrays as the region found
  them, entry by entry — whatever those arrays hold.
-/
import proofs.«141450_j43276090474887_1_alg».proof.Proof.Gen.KernelIdeal.Frame
import proofs.«141450_j43276090474887_1_alg».proof.Proof.Spec
import proofs.«141450_j43276090474887_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Closed
open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-block access, as the constant function. -/
theorem zeroOffsets : (![0, 0] : Fin 2 → Nat) = fun _ => 0 := funext fun a => by fin_cases a <;> rfl

/-- The first product's dimension numbers are the plain rows-by-columns ones: contract axis 1 of the left operand
    with axis 0 of the right, no batch axis. -/
theorem dims0 : dot_S10000x128_S128x64_S10000x64_1_0_0_1_n_n = DotDims.plain 10000 128 64 := rfl
/-- The second product's dimension numbers are the plain ones too. -/
theorem dims2 : dot_S10000x64_S64x64_S10000x64_1_0_0_1_n_n = DotDims.plain 10000 64 64 := rfl

/-- One block of the first product at (p, q): the change of format is the identity on the extended reals and the
    accumulator is zero, so what is left is the sum over k of left (p, k) · right (k, q). -/
theorem pay0_apply (x0 : Vec Ideal S10000x128 .f32) (x1 : Vec Ideal S128x64 .f32) (p : Fin 10000) (q : Fin 64) :
    k0_pay1 (F := Ideal) x0 x1 (ix2 p q) = ∑ k : Fin 128, (x0 (ix2 p k) : EReal) * (x1 (ix2 k q) : EReal) := by
  unfold k0_pay1
  show FloatOps.matmul dot_S10000x128_S128x64_S10000x64_1_0_0_1_n_n none (truncf (F := Ideal) .bf16 x0 bitsLt_bf16_f32)
      (truncf (F := Ideal) .bf16 x1 bitsLt_bf16_f32) (constant (F := Ideal) S10000x64 .f32 0x00000000#32) (ix2 p q) = _
  rw [dims0]
  exact RowDot.matmul_zero_apply (M := 10000) (K := 128) (N := 64) none
    (truncf (F := Ideal) .bf16 x0 bitsLt_bf16_f32) (truncf (F := Ideal) .bf16 x1 bitsLt_bf16_f32) p q

/-- One block of the second product at (p, q): the cast to the same shape is the identity, and then as for the first. -/
theorem pay2_apply (x0 : Vec Ideal S10000x64 .f32) (x1 : Vec Ideal S64x64 .f32) (p : Fin 10000) (q : Fin 64) :
    k2_pay1 (F := Ideal) x0 x1 (ix2 p q) = ∑ k : Fin 64, (x0 (ix2 p k) : EReal) * (x1 (ix2 k q) : EReal) := by
  unfold k2_pay1
  rw [shapeCast_self]
  show FloatOps.matmul dot_S10000x64_S64x64_S10000x64_1_0_0_1_n_n none (truncf (F := Ideal) .bf16 x0 bitsLt_bf16_f32)
      (truncf (F := Ideal) .bf16 x1 bitsLt_bf16_f32) (constant (F := Ideal) S10000x64 .f32 0x00000000#32) (ix2 p q) = _
  rw [dims2]
  exact RowDot.matmul_zero_apply (M := 10000) (K := 64) (N := 64) none
    (truncf (F := Ideal) .bf16 x0 bitsLt_bf16_f32) (truncf (F := Ideal) .bf16 x1 bitsLt_bf16_f32) p q

variable (V : (c : Dev nD) → (b : Ref sig .tc) → Buf (Elt Ideal) ((c : Thread nD τ).loc b))

/-- Where the first product's blocks sit at grid point t: the left operand's and the result's are row block t (block
    index (t, 0)), the right operand's is the whole matrix (block index (0, 0)). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is row block t of the whole product: row p of the block is row 10000 t + p of the
    array, the left operand's block holds exactly those rows, and the right operand's block is the whole matrix. -/
theorem flushed0 (c : Dev nD) (t : Fin cfg0.N) :
    (dat0 (F := Ideal) V c).flushed 2 t
      = ((cfg0.win 2).blk t).view.read (Elt Ideal) (Cert.Gcn.rowsTimes (K := 128) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x64) zeroOffsets]
  obtain ⟨e0, e1, e2, e3, e4, e5⟩ := blockIndex0 t
  have ht : t.val < 10 := lt_of_lt_of_eq t.isLt N_0
  refine funext fun (j : S10000x64.Idx) => ?_
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = Cert.Gcn.rowsTimes (K := 128) (V c main_arg0) (V c main_arg2) (((cfg0.win 2).blk t).view.emb (ix2 p q))
  have hrow : ((cfg0.win 2).blk t).view.emb (ix2 p q)
      = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine (pay0_apply _ _ p q).trans ?_
  refine Eq.trans ?_ (congrArg (Cert.Gcn.rowsTimes (K := 128) (V c main_arg0) (V c main_arg2)) hrow).symm
  refine Eq.trans ?_ (Cert.Gcn.rowsTimes_apply _ _ _ q).symm
  refine Finset.sum_congr rfl fun k _ => ?_
  have hl : iblk0 V c 0 t (ix2 p k) = V c main_arg0 (ix2 (⟨t.val * 10000 + p.val, by omega⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have hr : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  exact congr (congrArg (fun a b : EReal => a * b) hl) hr

/-- An index of the first product's array is in point t's block iff each coordinate is in the block's range. -/
theorem mem_rows0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks cover the array: row r is in block r / 10000. -/
theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := blockIndex0 t
  refine ⟨t, flush0_2 t, ?_⟩
  rw [mem_rows0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0: the first layer's product, every row of the node features against the first weight matrix. -/
theorem final0 (c : Dev nD) :
    (dat0 (F := Ideal) V c).arrAt 2 cfg0.N = Cert.Gcn.rowsTimes (K := 128) (V c main_arg0) (V c main_arg2) :=
  (dat0 (F := Ideal) V c).arrAt_eq_of_cover 2 _ (fun t _ => flushed0 V c t) cover0

/-- Where the second product's blocks sit at grid point t: the left operand's and the result's are row block t (block
    index (t, 0)), the right operand's is the whole matrix (block index (0, 0)). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is row block t of the whole product: row p of the block is row 10000 t + p of the
    array, the left operand's block holds exactly those rows, and the right operand's block is the whole matrix. -/
theorem flushed2 (c : Dev nD) (t : Fin cfg2.N) :
    (dat2 (F := Ideal) V c).flushed 2 t
      = ((cfg2.win 2).blk t).view.read (Elt Ideal) (Cert.Gcn.rowsTimes (K := 64) (V c main_v45) (V c main_arg4)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S64x64) zeroOffsets]
  obtain ⟨e0, e1, e2, e3, e4, e5⟩ := blockIndex2 t
  have ht : t.val < 10 := lt_of_lt_of_eq t.isLt N_2
  refine funext fun (j : S10000x64.Idx) => ?_
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = Cert.Gcn.rowsTimes (K := 64) (V c main_v45) (V c main_arg4) (((cfg2.win 2).blk t).view.emb (ix2 p q))
  have hrow : ((cfg2.win 2).blk t).view.emb (ix2 p q)
      = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  refine (pay2_apply _ _ p q).trans ?_
  refine Eq.trans ?_ (congrArg (Cert.Gcn.rowsTimes (K := 64) (V c main_v45) (V c main_arg4)) hrow).symm
  refine Eq.trans ?_ (Cert.Gcn.rowsTimes_apply _ _ _ q).symm
  refine Finset.sum_congr rfl fun k _ => ?_
  have hl : iblk2 V c 0 t (ix2 p k) = V c main_v45 (ix2 (⟨t.val * 10000 + p.val, by omega⟩ : Fin 100000) k) := by
    show V c main_v45 (((cfg2.win 0).blk t).view.emb (ix2 p k)) = _
    refine congrArg (V c main_v45) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have hr : iblk2 V c 1 t (ix2 k q) = V c main_arg4 (ix2 k q) := by
    show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  exact congr (congrArg (fun a b : EReal => a * b) hl) hr

/-- An index of the second product's array is in point t's block iff each coordinate is in the block's range. -/
theorem mem_rows2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v46).slice (win2_2.rect t)).set ↔ _
  rw [View.set_slice_whole, Rect.mem_set_unit]
  exact Iff.rfl

/-- The ten row blocks cover the array: row r is in block r / 10000. -/
theorem cover2 (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := blockIndex2 t
  refine ⟨t, flush2_2 t, ?_⟩
  rw [mem_rows2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- Region 2: the second layer's product, every hidden row against the second weight matrix. -/
theorem final2 (c : Dev nD) :
    (dat2 (F := Ideal) V c).arrAt 2 cfg2.N = Cert.Gcn.rowsTimes (K := 64) (V c main_v45) (V c main_arg4) :=
  (dat2 (F := Ideal) V c).arrAt_eq_of_cover 2 _ (fun t _ => flushed2 V c t) cover2

end Cert.KernelIdeal.Closed
end
-- ==== Proof.BiasRegions.lean ====
/-
  The two bias stages of the two-layer graph convolution, each as ONE function of whole arrays.

  A bias stage walks the 100000 rows of the aggregated features in ten blocks of 10000 rows.  At block t it reads rows
  10000·t … 10000·t + 9999 of the features and the whole bias row, adds the bias row to every row of the block (and, in
  the first layer, replaces each negative entry by zero), and writes the result to the same rows of the output.  Entry
  (p, q) of block t is entry (10000·t + p, q) of the array, and the bias row's entry q is entry (0, q) of its one-row
  array whatever the block; the ten blocks are disjoint and every row r lies in block r / 10000.  So after the ten
  blocks the output array is, entry by entry, the features plus the bias row (first layer: the larger of that and
  zero) — the functions `plusRow` and `plusRowPos` of the specification, of the two arrays as the stage found them.
-/
import proofs.«141450_j43276090474887_1_alg».proof.Proof.Gen.KernelIdeal.Frame
import proofs.«141450_j43276090474887_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Closed
open Cert.KernelIdeal Cert.KernelIdeal.Gen Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## One block's arithmetic, entry by entry -/

/-- The offsets of a whole-block access are all zero. -/
private theorem zeroOffsets : (![0, 0] : Fin 2 → Nat) = fun _ => 0 := funext fun a => by fin_cases a <;> rfl

/-- Second layer: entry (p, q) of the block the body stores is the block's entry plus the bias row's entry q. -/
private theorem biasBlock_apply (x0 : Vec Ideal S10000x64 .f32) (x1 : Vec Ideal S1x64 .f32) (p : Fin 10000) (q : Fin 64) :
    k3_pay1 x0 x1 (ix2 p q) = x0 (ix2 p q) + x1 (ix2 (0 : Fin 1) q) := by
  unfold k3_pay1
  rw [addf_apply, shapeCast_self, shapeCast_self, broadcastTo_1b_ab_apply]

/-- First layer: the same sum, then the larger of it and zero (the kernel's zero is the all-zero word). -/
private theorem biasPosBlock_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max _ (Ideal.ofBits .f32 0x00000000#32) = _
  rw [Ideal.ofBits_zero_f32]

/-- Adding the bias row, read where the blocks say: if the features' entry sits at the output's index and the bias row's
    at (0, that index's column), the sum is `plusRow` at that index. -/
private theorem plusRow_at (A : S100000x64.Idx → EReal) (B : S1x64.Idx → EReal) (i0 i2 : S100000x64.Idx) (i1 : S1x64.Idx)
    (h0 : i0 = i2) (h1 : i1 = ix2 (0 : Fin 1) (i2 1 : Fin 64)) : A i0 + B i1 = Cert.Gcn.plusRow A B i2 := by
  subst h0 h1; rfl

/-- The same with the negatives replaced by zero: `plusRowPos` at that index. -/
private theorem plusRowPos_at (A : S100000x64.Idx → EReal) (B : S1x64.Idx → EReal) (i0 i2 : S100000x64.Idx) (i1 : S1x64.Idx)
    (h0 : i0 = i2) (h1 : i1 = ix2 (0 : Fin 1) (i2 1 : Fin 64)) : max (A i0 + B i1) 0 = Cert.Gcn.plusRowPos A B i2 := by
  subst h0 h1; rfl

/-! ## The first layer's bias stage -/

/-- Which block each of the three arrays is at, at each of the ten steps: the features and the output at row block t,
    the bias row at its one block. -/
private theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What step t writes to the output is rows 10000·t … 10000·t + 9999 of `plusRowPos` of the two arrays: entry (p, q) of
    each block is entry (10000·t + p, q) of its array, and the bias row is read at (0, q). -/
private theorem written1_eq (c : Dev nD) (t : Fin cfg1.N) :
    (dat1 (F := Ideal) V c).flushed 2 t
      = ((cfg1.win 2).blk t).view.read (Elt Ideal) (Cert.Gcn.plusRowPos (V c main_v43) (V c main_v44)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S1x64) zeroOffsets]
  obtain ⟨e0, e1, e2, e3, e4, e5⟩ := blockIndex1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
      = Cert.Gcn.plusRowPos (V c main_v43) (V c main_v44) (((cfg1.win 2).blk t).view.emb (ix2 p q))
  refine (biasPosBlock_apply _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) ((((cfg1.win 2).blk t).view.emb (ix2 p q)) 1 : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact plusRowPos_at (V c main_v43) (V c main_v44) (((cfg1.win 0).blk t).view.emb (ix2 p q))
    (((cfg1.win 2).blk t).view.emb (ix2 p q)) (((cfg1.win 1).blk t).view.emb (ix2 (0 : Fin 1) q)) h0 h1

/-- An entry of the output is in step t's block iff each coordinate is in the block's range on its axis. -/
private theorem mem_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks cover the output: row r is in block r / 10000, and every step writes its block. -/
private theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := blockIndex1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- Region 1: the first layer's bias row added to every aggregated row, negatives replaced by zero. -/
theorem final1 (c : Dev nD) :
    (dat1 (F := Ideal) V c).arrAt 2 cfg1.N = Cert.Gcn.plusRowPos (V c main_v43) (V c main_v44) :=
  (dat1 V c).arrAt_eq_of_cover 2 (Cert.Gcn.plusRowPos (V c main_v43) (V c main_v44)) (fun t _ => written1_eq V c t) covered1

/-! ## The second layer's bias stage -/

/-- Which block each of the three arrays is at, at each of the ten steps: the features and the output at row block t,
    the bias row at its one block. -/
private theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What step t writes to the output is rows 10000·t … 10000·t + 9999 of `plusRow` of the two arrays: entry (p, q) of
    each block is entry (10000·t + p, q) of its array, and the bias row is read at (0, q). -/
private theorem written3_eq (c : Dev nD) (t : Fin cfg3.N) :
    (dat3 (F := Ideal) V c).flushed 2 t
      = ((cfg3.win 2).blk t).view.read (Elt Ideal) (Cert.Gcn.plusRow (V c main_v59) (V c main_v60)) := by
  show (cfg3.win 2).cut (grid3.coords t) ((dat3 V c).after 2 t) = _
  rw [after3_2]
  unfold out3_2
  rw [View.canon_unit_zero zeroOffsets]
  simp only [View.ld_unit_zero (S := S10000x64) zeroOffsets, View.ld_unit_zero (S := S1x64) zeroOffsets]
  obtain ⟨e0, e1, e2, e3, e4, e5⟩ := blockIndex3 t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
      = Cert.Gcn.plusRow (V c main_v59) (V c main_v60) (((cfg3.win 2).blk t).view.emb (ix2 p q))
  refine (biasBlock_apply _ _ p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) ((((cfg3.win 2).blk t).view.emb (ix2 p q)) 1 : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  exact plusRow_at (V c main_v59) (V c main_v60) (((cfg3.win 0).blk t).view.emb (ix2 p q))
    (((cfg3.win 2).blk t).view.emb (ix2 p q)) (((cfg3.win 1).blk t).view.emb (ix2 (0 : Fin 1) q)) h0 h1

/-- An entry of the output is in step t's block iff each coordinate is in the block's range on its axis. -/
private theorem mem_block3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v61).slice (win3_2.rect t)).set ↔ _
  rw [View.set_slice_whole, Rect.mem_set_unit]
  exact Iff.rfl

/-- The ten row blocks cover the output: row r is in block r / 10000, and every step writes its block. -/
private theorem covered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := blockIndex3 t
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- Region 3: the second layer's bias row added to every aggregated row. -/
theorem final3 (c : Dev nD) :
    (dat3 (F := Ideal) V c).arrAt 2 cfg3.N = Cert.Gcn.plusRow (V c main_v59) (V c main_v60) :=
  (dat3 V c).arrAt_eq_of_cover 2 (Cert.Gcn.plusRow (V c main_v59) (V c main_v60)) (fun t _ => written3_eq V c t) covered3

end Cert.KernelIdeal.Closed
end
-- ==== Proof.KernelValue.lean ====
/-
  The idealized kernel's result as a function of its arguments.

  The contents of the buffers are followed from segment to segment.  The stretch before the first product leaves the
  features, weights and biases as launched and builds the edge data, which no later segment writes.  The first region
  turns the features into the first product; the next stretch mixes it along the edges and lays out the first bias; the
  second region adds the bias and replaces negatives by zero; the third multiplies by the second weight matrix; the last
  stretch mixes again and lays out the second bias; the fourth region adds it.  Each region's output array is the
  region's closed form of the arrays it was entered with, and each stretch is read over whatever it starts from, so the
  composition is a chain of substitutions.
-/
import proofs.«141450_j43276090474887_1_alg».proof.Proof.Gen.KernelIdeal.Frame
import proofs.«141450_j43276090474887_1_alg».proof.Proof.HostStretch
import proofs.«141450_j43276090474887_1_alg».proof.Proof.Spec
import proofs.«141450_j43276090474887_1_alg».proof.Proof.RowLayout
import proofs.«141450_j43276090474887_1_alg».proof.Proof.ProductRegions
import proofs.«141450_j43276090474887_1_alg».proof.Proof.BiasRegions

set_option maxRecDepth 16384

noncomputable section

namespace Cert.KernelIdeal.KernelValue

open Cert.KernelIdeal Cert.KernelIdeal.Gen Cert.KernelIdeal.Mix Cert.KernelIdeal.HostStretch
open Idealize.ShloMosaic Idealize.ShloMosaic.TcCoe Idealize.SL.Sem

open Cert.KernelIdeal

variable (m : (ℓ : Loc nD τ sig) → Buf (Elt Ideal) ℓ) (ρ : Dev nD → PrngReg) (c : Dev nD)

/-! ## What the stretch before the first product leaves: the arguments as launched, and the edge data -/

theorem W3_main_arg3 : W3 m ρ c (Proc.devRef .tc main_arg3) = (m ((c : Thread nD τ).loc main_arg3)) := pre_keeps_main_arg3 (W0 m ρ c)
theorem W4_main_arg3 : W4 m ρ c (Proc.devRef .tc main_arg3) = (m ((c : Thread nD τ).loc main_arg3)) := (W4_of_ne m ρ c main_arg3 (by decide)).trans (W3_main_arg3 m ρ c)
theorem W3_main_arg0 : W3 m ρ c (Proc.devRef .tc main_arg0) = (m ((c : Thread nD τ).loc main_arg0)) := pre_keeps_main_arg0 (W0 m ρ c)
theorem W3_main_arg2 : W3 m ρ c (Proc.devRef .tc main_arg2) = (m ((c : Thread nD τ).loc main_arg2)) := pre_keeps_main_arg2 (W0 m ρ c)

theorem W3_main_v3 : W3 m ρ c (Proc.devRef .tc main_v3) = (srcOf (m ((c : Thread nD τ).loc main_arg1))) := pre_src (W0 m ρ c)
theorem W4_main_v3 : W4 m ρ c (Proc.devRef .tc main_v3) = (srcOf (m ((c : Thread nD τ).loc main_arg1))) := (W4_of_ne m ρ c main_v3 (by decide)).trans (W3_main_v3 m ρ c)
theorem W5_main_v3 : W5 m ρ c (Proc.devRef .tc main_v3) = (srcOf (m ((c : Thread nD τ).loc main_arg1))) := (mid_keeps_main_v3 (W4 m ρ c)).trans (W4_main_v3 m ρ c)
theorem W6_main_v3 : W6 m ρ c (Proc.devRef .tc main_v3) = (srcOf (m ((c : Thread nD τ).loc main_arg1))) := (W6_of_ne m ρ c main_v3 (by decide)).trans (W5_main_v3 m ρ c)
theorem W7_main_v3 : W7 m ρ c (Proc.devRef .tc main_v3) = (srcOf (m ((c : Thread nD τ).loc main_arg1))) := (W7_of_ne m ρ c main_v3 (by decide)).trans (W6_main_v3 m ρ c)

theorem W3_main_v6 : W3 m ρ c (Proc.devRef .tc main_v6) = (dstOf (m ((c : Thread nD τ).loc main_arg1))) := pre_dst (W0 m ρ c)
theorem W4_main_v6 : W4 m ρ c (Proc.devRef .tc main_v6) = (dstOf (m ((c : Thread nD τ).loc main_arg1))) := (W4_of_ne m ρ c main_v6 (by decide)).trans (W3_main_v6 m ρ c)
theorem W5_main_v6 : W5 m ρ c (Proc.devRef .tc main_v6) = (dstOf (m ((c : Thread nD τ).loc main_arg1))) := (mid_keeps_main_v6 (W4 m ρ c)).trans (W4_main_v6 m ρ c)
theorem W6_main_v6 : W6 m ρ c (Proc.devRef .tc main_v6) = (dstOf (m ((c : Thread nD τ).loc main_arg1))) := (W6_of_ne m ρ c main_v6 (by decide)).trans (W5_main_v6 m ρ c)
theorem W7_main_v6 : W7 m ρ c (Proc.devRef .tc main_v6) = (dstOf (m ((c : Thread nD τ).loc main_arg1))) := (W7_of_ne m ρ c main_v6 (by decide)).trans (W6_main_v6 m ρ c)

theorem W3_main_v29 : W3 m ρ c (Proc.devRef .tc main_v29) = (normOf (F := Ideal) (srcOf (m ((c : Thread nD τ).loc main_arg1))) (dstOf (m ((c : Thread nD τ).loc main_arg1)))) := pre_norm (W0 m ρ c)
theorem W4_main_v29 : W4 m ρ c (Proc.devRef .tc main_v29) = (normOf (F := Ideal) (srcOf (m ((c : Thread nD τ).loc main_arg1))) (dstOf (m ((c : Thread nD τ).loc main_arg1)))) := (W4_of_ne m ρ c main_v29 (by decide)).trans (W3_main_v29 m ρ c)
theorem W5_main_v29 : W5 m ρ c (Proc.devRef .tc main_v29) = (normOf (F := Ideal) (srcOf (m ((c : Thread nD τ).loc main_arg1))) (dstOf (m ((c : Thread nD τ).loc main_arg1)))) := (mid_keeps_main_v29 (W4 m ρ c)).trans (W4_main_v29 m ρ c)
theorem W6_main_v29 : W6 m ρ c (Proc.devRef .tc main_v29) = (normOf (F := Ideal) (srcOf (m ((c : Thread nD τ).loc main_arg1))) (dstOf (m ((c : Thread nD τ).loc main_arg1)))) := (W6_of_ne m ρ c main_v29 (by decide)).trans (W5_main_v29 m ρ c)
theorem W7_main_v29 : W7 m ρ c (Proc.devRef .tc main_v29) = (normOf (F := Ideal) (srcOf (m ((c : Thread nD τ).loc main_arg1))) (dstOf (m ((c : Thread nD τ).loc main_arg1)))) := (W7_of_ne m ρ c main_v29 (by decide)).trans (W6_main_v29 m ρ c)

theorem W3_main_arg4 : W3 m ρ c (Proc.devRef .tc main_arg4) = (m ((c : Thread nD τ).loc main_arg4)) := pre_keeps_main_arg4 (W0 m ρ c)
theorem W4_main_arg4 : W4 m ρ c (Proc.devRef .tc main_arg4) = (m ((c : Thread nD τ).loc main_arg4)) := (W4_of_ne m ρ c main_arg4 (by decide)).trans (W3_main_arg4 m ρ c)
theorem W5_main_arg4 : W5 m ρ c (Proc.devRef .tc main_arg4) = (m ((c : Thread nD τ).loc main_arg4)) := (mid_keeps_main_arg4 (W4 m ρ c)).trans (W4_main_arg4 m ρ c)
theorem W6_main_arg4 : W6 m ρ c (Proc.devRef .tc main_arg4) = (m ((c : Thread nD τ).loc main_arg4)) := (W6_of_ne m ρ c main_arg4 (by decide)).trans (W5_main_arg4 m ρ c)

theorem W3_main_arg5 : W3 m ρ c (Proc.devRef .tc main_arg5) = (m ((c : Thread nD τ).loc main_arg5)) := pre_keeps_main_arg5 (W0 m ρ c)
theorem W4_main_arg5 : W4 m ρ c (Proc.devRef .tc main_arg5) = (m ((c : Thread nD τ).loc main_arg5)) := (W4_of_ne m ρ c main_arg5 (by decide)).trans (W3_main_arg5 m ρ c)
theorem W5_main_arg5 : W5 m ρ c (Proc.devRef .tc main_arg5) = (m ((c : Thread nD τ).loc main_arg5)) := (mid_keeps_main_arg5 (W4 m ρ c)).trans (W4_main_arg5 m ρ c)
theorem W6_main_arg5 : W6 m ρ c (Proc.devRef .tc main_arg5) = (m ((c : Thread nD τ).loc main_arg5)) := (W6_of_ne m ρ c main_arg5 (by decide)).trans (W5_main_arg5 m ρ c)
theorem W7_main_arg5 : W7 m ρ c (Proc.devRef .tc main_arg5) = (m ((c : Thread nD τ).loc main_arg5)) := (W7_of_ne m ρ c main_arg5 (by decide)).trans (W6_main_arg5 m ρ c)

/-! ## The first layer -/

/-- After the first region its output array is the first product of the launched features and weights. -/
theorem W4_product : W4 m ρ c (Proc.devRef .tc main_v30) = Cert.Gcn.rowsTimes (K := 128) (m ((c : Thread nD τ).loc main_arg0)) (m ((c : Thread nD τ).loc main_arg2)) := by
  refine (W4_arr m ρ c 2).trans ((Closed.final0 (V3 m ρ) c).trans ?_)
  show Cert.Gcn.rowsTimes (K := 128) (W3 m ρ c (Proc.devRef .tc main_arg0)) (W3 m ρ c (Proc.devRef .tc main_arg2)) = _
  rw [W3_main_arg0, W3_main_arg2]

/-- The bias stage is entered with the mixed product and the bias row. -/
theorem W5_mixed : W5 m ρ c (Proc.devRef .tc main_v43)
    = mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 128) (m ((c : Thread nD τ).loc main_arg0)) (m ((c : Thread nD τ).loc main_arg2))) := by
  refine (mid_mix (W4 m ρ c)).trans ?_
  rw [W4_main_v3, W4_main_v6, W4_main_v29, W4_product]

theorem W5_row : W5 m ρ c (Proc.devRef .tc main_v44) = Cert.Gcn.rowOf (m ((c : Thread nD τ).loc main_arg3)) := by
  refine (mid_row (W4 m ρ c)).trans ?_
  rw [W4_main_arg3]
  exact Cert.Gcn.shapeCast_row _ _

/-- After the second region its output array is the first layer's result. -/
theorem W6_hidden : W6 m ρ c (Proc.devRef .tc main_v45) = (Cert.Gcn.plusRowPos (mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 128) (m ((c : Thread nD τ).loc main_arg0)) (m ((c : Thread nD τ).loc main_arg2)))) (Cert.Gcn.rowOf (m ((c : Thread nD τ).loc main_arg3)))) := by
  refine (W6_arr m ρ c 2).trans ((Closed.final1 (V5 m ρ) c).trans ?_)
  show Cert.Gcn.plusRowPos (W5 m ρ c (Proc.devRef .tc main_v43)) (W5 m ρ c (Proc.devRef .tc main_v44)) = _
  rw [W5_mixed, W5_row]

/-! ## The second layer -/

/-- After the third region its output array is the second product. -/
theorem W7_product : W7 m ρ c (Proc.devRef .tc main_v46) = (Cert.Gcn.rowsTimes (K := 64) (Cert.Gcn.plusRowPos (mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 128) (m ((c : Thread nD τ).loc main_arg0)) (m ((c : Thread nD τ).loc main_arg2)))) (Cert.Gcn.rowOf (m ((c : Thread nD τ).loc main_arg3)))) (m ((c : Thread nD τ).loc main_arg4))) := by
  refine (W7_arr m ρ c 2).trans ((Closed.final2 (V6 m ρ) c).trans ?_)
  show Cert.Gcn.rowsTimes (K := 64) (W6 m ρ c (Proc.devRef .tc main_v45)) (W6 m ρ c (Proc.devRef .tc main_arg4)) = _
  rw [W6_hidden, W6_main_arg4]

theorem W8_mixed : W8 m ρ c (Proc.devRef .tc main_v59) = mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 64) (Cert.Gcn.plusRowPos (mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 128) (m ((c : Thread nD τ).loc main_arg0)) (m ((c : Thread nD τ).loc main_arg2)))) (Cert.Gcn.rowOf (m ((c : Thread nD τ).loc main_arg3)))) (m ((c : Thread nD τ).loc main_arg4))) := by
  refine (last_mix (W7 m ρ c)).trans ?_
  rw [W7_main_v3, W7_main_v6, W7_main_v29, W7_product]

theorem W8_row : W8 m ρ c (Proc.devRef .tc main_v60) = Cert.Gcn.rowOf (m ((c : Thread nD τ).loc main_arg5)) := by
  refine (last_row (W7 m ρ c)).trans ?_
  rw [W7_main_arg5]
  exact Cert.Gcn.shapeCast_row _ _

/-- THE KERNEL'S RESULT: after the last region the result array is the second layer of the launched arguments. -/
theorem result_eq : W9 m ρ c (Proc.devRef .tc main_v61)
    = Cert.Gcn.plusRow (mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 64) (Cert.Gcn.plusRowPos (mixWith (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Cert.Gcn.rowsTimes (K := 128) (m ((c : Thread nD τ).loc main_arg0)) (m ((c : Thread nD τ).loc main_arg2)))) (Cert.Gcn.rowOf (m ((c : Thread nD τ).loc main_arg3)))) (m ((c : Thread nD τ).loc main_arg4)))) (Cert.Gcn.rowOf (m ((c : Thread nD τ).loc main_arg5))) := by
  refine (W9_arr m ρ c 2).trans ((Closed.final3 (V8 m ρ) c).trans ?_)
  show Cert.Gcn.plusRow (W8 m ρ c (Proc.devRef .tc main_v59)) (W8 m ρ c (Proc.devRef .tc main_v60)) = _
  rw [W8_mixed, W8_row]

end Cert.KernelIdeal.KernelValue

end
-- ==== Proof.RefValue.lean ====
/-
  What the reference computes, layer by layer.

  Its result is a closed term of its arguments.  Read from the outside in it is: the second bias added to a round of
  mixing of the second product, whose left operand is the first layer — the first bias added to a round of mixing of the
  first product, negatives replaced by zero.  With the mixing carried whole, each remaining stage is, index by index,
  one of the plain functions of the specification: a product of every row with a weight matrix is the sum over the
  contracted index, and a bias broadcast to every row meets column q at its entry q.
-/
import proofs.«141450_j43276090474887_1_alg».proof.Proof.RefRun
import proofs.«141450_j43276090474887_1_alg».proof.Proof.EdgeMix
import proofs.«141450_j43276090474887_1_alg».proof.Proof.Spec
import proofs.«141450_j43276090474887_1_alg».proof.Proof.RowLayout
import proofs.«141450_j43276090474887_1_alg».proof.Proof.LibRowDot
import Idealize.ShloMosaic.PureOps.Ideal.Laws

noncomputable section

namespace Cert.ReferenceIdeal.RefValue

open Cert.ReferenceIdeal Cert.ReferenceIdeal.Gen Cert.ReferenceIdeal.Mix
open Idealize.ShloMosaic Idealize.ShloMosaic.TcCoe Idealize.ShloMosaic.ValueIdx Idealize.SL.Sem

section Layers

variable {F : FTy → Type} [FloatOps F]

/-- The reference's two layers over its arguments, the mixing along the edges carried as one function. -/
def layers (e : IVec S2x1600000 32) (x : FVec F S100000x128 .f32) (w1 : FVec F S128x64 .f32) (b1 : FVec F S64 .f32)
    (w2 : FVec F S64x64 .f32) (b2 : FVec F S64 .f32) : FVec F S100000x64 .f32 :=
  addf (mixWith (srcOf e) (dstOf e) (normOf (srcOf e) (dstOf e)) (Host.dotGeneral dot_S100000x64_S64x64_S100000x64_1_0_0_1_n_n none (maximumf (addf (mixWith (srcOf e) (dstOf e) (normOf (srcOf e) (dstOf e)) (Host.dotGeneral dot_S100000x128_S128x64_S100000x64_1_0_0_1_n_n none x w1)) (broadcastInDim S100000x64 ![0, 1] bcast_S1x64_S100000x64_0_1 (broadcastInDim S1x64 ![1] bcast_S64_S1x64_1 b1))) (broadcastInDim S100000x64 ![] bcast_S_S100000x64 (constant S_ .f32 0x00000000#32))) w2)) (broadcastInDim S100000x64 ![0, 1] bcast_S1x64_S100000x64_0_1 (broadcastInDim S1x64 ![1] bcast_S64_S1x64_1 b2))

set_option maxRecDepth 8192 in
set_option maxHeartbeats 4000000 in
/-- The run's result term is those layers of the launch contents of the arguments. -/
theorem res_eq_layers (m : (ℓ : Loc nD τ sig) → Buf (Elt F) ℓ) (c : Dev nD) :
    ValueP.res_main_v79 (F := F) m c
      = layers (F := F) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  unfold ValueP.res_main_v79
  rfl

end Layers

/-! ## The stages at the extended reals -/

/-- The first product: every feature row against the first weight matrix. -/
theorem product1_eq (x : FVec Ideal S100000x128 .f32) (w : FVec Ideal S128x64 .f32) :
    Host.dotGeneral dot_S100000x128_S128x64_S100000x64_1_0_0_1_n_n none x w = Cert.Gcn.rowsTimes (K := 128) x w := by
  funext i
  obtain ⟨r, q, rfl⟩ : ∃ (r : Fin 100000) (q : Fin 64), i = ix2 r q := ⟨i 0, i 1, eq_ix2 i⟩
  exact RowDot.dotGeneral_apply (M := 100000) (K := 128) (N := 64) none .single x w r q

/-- The second product: every hidden row against the second weight matrix. -/
theorem product2_eq (x : FVec Ideal S100000x64 .f32) (w : FVec Ideal S64x64 .f32) :
    Host.dotGeneral dot_S100000x64_S64x64_S100000x64_1_0_0_1_n_n none x w = Cert.Gcn.rowsTimes (K := 64) x w := by
  funext i
  obtain ⟨r, q, rfl⟩ : ∃ (r : Fin 100000) (q : Fin 64), i = ix2 r q := ⟨i 0, i 1, eq_ix2 i⟩
  exact RowDot.dotGeneral_apply (M := 100000) (K := 64) (N := 64) none .single x w r q

/-- A bias broadcast to every row and added. -/
theorem bias_eq (a : FVec Ideal S100000x64 .f32) (b : FVec Ideal S64 .f32) :
    addf a (broadcastInDim S100000x64 ![0, 1] bcast_S1x64_S100000x64_0_1 (broadcastInDim S1x64 ![1] bcast_S64_S1x64_1 b))
      = Cert.Gcn.plusRow a (Cert.Gcn.rowOf b) := by
  funext i
  obtain ⟨r, q, rfl⟩ : ∃ (r : Fin 100000) (q : Fin 64), i = ix2 r q := ⟨i 0, i 1, eq_ix2 i⟩
  exact congrArg (fun z : EReal => a (ix2 r q) + z)
    (Cert.Gcn.broadcast_rows_apply b bcast_S64_S1x64_1 bcast_S1x64_S100000x64_0_1 r q)

/-- A bias broadcast to every row and added, negatives replaced by zero. -/
theorem bias_pos_eq (a : FVec Ideal S100000x64 .f32) (b : FVec Ideal S64 .f32) :
    maximumf (addf a (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = Cert.Gcn.plusRowPos a (Cert.Gcn.rowOf b) := by
  funext i
  obtain ⟨r, q, rfl⟩ : ∃ (r : Fin 100000) (q : Fin 64), i = ix2 r q := ⟨i 0, i 1, eq_ix2 i⟩
  have hz : broadcastInDim S100000x64 ![] bcast_S_S100000x64 (constant (F := Ideal) S_ .f32 0x00000000#32) (ix2 r q) = (0 : EReal) :=
    Ideal.ofBits_zero_f32
  show max (a (ix2 r q) + _) _ = max (a (ix2 r q) + b (ix1 q)) 0
  rw [hz]
  exact congrArg (fun z : EReal => max (a (ix2 r q) + z) 0)
    (Cert.Gcn.broadcast_rows_apply b bcast_S64_S1x64_1 bcast_S1x64_S100000x64_0_1 r q)

/-- The reference's layers at the extended reals, stage by stage the specification's functions. -/
theorem layers_eq (e : IVec S2x1600000 32) (x : FVec Ideal S100000x128 .f32) (w1 : FVec Ideal S128x64 .f32)
    (b1 : FVec Ideal S64 .f32) (w2 : FVec Ideal S64x64 .f32) (b2 : FVec Ideal S64 .f32) :
    layers (F := Ideal) e x w1 b1 w2 b2
      = Cert.Gcn.plusRow (mixWith (F := Ideal) (srcOf e) (dstOf e) (normOf (srcOf e) (dstOf e))
          (Cert.Gcn.rowsTimes (K := 64) (Cert.Gcn.plusRowPos (mixWith (F := Ideal) (srcOf e) (dstOf e) (normOf (srcOf e) (dstOf e))
            (Cert.Gcn.rowsTimes (K := 128) x w1)) (Cert.Gcn.rowOf b1)) w2)) (Cert.Gcn.rowOf b2) := by
  unfold layers
  rw [product1_eq, bias_pos_eq, product2_eq, bias_eq]

end Cert.ReferenceIdeal.RefValue

end
-- ==== Proof.lean ====
/-
  Two layers of graph convolution over 100000 nodes with 128 input features and 64 hidden and output features: the
  tiled kernel against the plain reference, equal as extended reals.

  Both programs form, from the edge list, the edges with a self loop for every node and the symmetric degree
  normalisation of every edge, and both mix node rows along the edges with the same host operations.  They differ in
  the dense stages: the kernel computes each product of the node rows with a weight matrix, and each addition of a
  bias row (followed in the first layer by replacing negatives with zero), ten thousand rows at a time in four tiled
  regions, rounding the product's operands to a shorter format on the way in; the reference computes each in one piece.
  On the extended reals the rounding is the identity, a tile of a product is the same sums over the contracted index
  as the corresponding rows of the whole product, and a tile of a biased array is the corresponding rows of the whole.
  So each region's output array is the whole-array function of what the region was entered with, the mixing is carried
  as one function on both sides, and the two results are the same composition of the same functions of the arguments.
  No law of arithmetic beyond this reading is used, and the inputs' finiteness is not needed.

  The three frames are the generated ones (the reference's from its run, with the result dropped); the idealization
  rewrote no operation, so nothing is to be preserved.
-/
import proofs.«141450_j43276090474887_1_alg».proof.Defs
import proofs.«141450_j43276090474887_1_alg».proof.Proof.Gen.Kernel
import proofs.«141450_j43276090474887_1_alg».proof.Proof.Gen.Kernel.Skeleton
import proofs.«141450_j43276090474887_1_alg».proof.Proof.Gen.Kernel.Launch
import proofs.«141450_j43276090474887_1_alg».proof.Proof.Gen.Kernel.Points
import proofs.«141450_j43276090474887_1_alg».proof.Proof.Gen.Kernel.Frame
import proofs.«141450_j43276090474887_1_alg».proof.Proof.Gen.KernelIdeal
import proofs.«141450_j43276090474887_1_alg».proof.Proof.Gen.KernelIdeal.Skeleton
import proofs.«141450_j43276090474887_1_alg».proof.Proof.Gen.KernelIdeal.Launch
import proofs.«141450_j43276090474887_1_alg».proof.Proof.Gen.KernelIdeal.Points
import proofs.«141450_j43276090474887_1_alg».proof.Proof.Gen.KernelIdeal.Frame
import proofs.«141450_j43276090474887_1_alg».proof.Proof.Gen.ReferenceIdeal
import proofs.«141450_j43276090474887_1_alg».proof.Proof.Gen.Pre_finite_inputs
import proofs.«141450_j43276090474887_1_alg».proof.Proof.KernelRun
import proofs.«141450_j43276090474887_1_alg».proof.Proof.KernelValue
import proofs.«141450_j43276090474887_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the second layer of those arguments: the kernel's
    result array by following its segments, the reference's by reading its result term, the two spellings of the mixing
    along the edges being the same functions. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result_eq m ρ c), (h c).2⟩)
      (Cert.KernelIdeal.RunResult.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq_layers, Cert.ReferenceIdeal.RefValue.layers_eq,
    (hagree c).1, (hagree c).2.1, (hagree c).2.2.1, (hagree c).2.2.2.1, (hagree c).2.2.2.2.1, (hagree c).2.2.2.2.2]
  simp only [Cert.MixBridge.srcOf_eq, Cert.MixBridge.dstOf_eq, Cert.MixBridge.normOf_eq, Cert.MixBridge.mixWith_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
